-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x4096 : Shape := ⟨3, ![2048, 4, 4096]⟩
abbrev S2048x4096 : Shape := ⟨2, ![2048, 4096]⟩
abbrev S4096 : Shape := ⟨1, ![4096]⟩
abbrev S_ : Shape := ⟨0, ![]⟩

class Facts : Prop where
  bcast_S_S2048x4x4096 : S_.BroadcastsInDim S2048x4x4096 (![] : Fin 0 → Fin S2048x4x4096.rank)
  reducesTo_S2048x4x4096_S_d0_1_2 : S2048x4x4096.ReducesTo [0, 1, 2] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4x4096 .f32) (main_arg1 : FVec F S2048x4096 .f32) (main_arg2 : FVec F S4096 .f32) (main_arg3 : FVec F S4096 .f32) : IVec S_ 1 :=
  let main_v0 : FVec F S2048x4x4096 .f32 := Host.absf main_arg0
  let main_cst : FVec F S_ .f32 := constant S_ .f32 0x7F800000#32
  let main_v1 : FVec F S2048x4x4096 .f32 := broadcastInDim S2048x4x4096 ![] bcast_S_S2048x4x4096 main_cst
  let main_v2 : IVec S2048x4x4096 1 := cmpf .olt main_v0 main_v1
  let main_c : IVec S_ 1 := constantI S_ 1 1#1
  let main_v3 : IVec S_ 1 := (fun x v => Host.reduce IntOp.andi x v reducesTo_S2048x4x4096_S_d0_1_2 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4x4096 : Shape := ⟨3, ![2048, 4, 4096]⟩
abbrev S2048x4096 : Shape := ⟨2, ![2048, 4096]⟩
abbrev S4096 : Shape := ⟨1, ![4096]⟩
abbrev S1x4096 : Shape := ⟨2, ![1, 4096]⟩
abbrev S2048x4x1x4096 : Shape := ⟨4, ![2048, 4, 1, 4096]⟩
abbrev S64x1x1x4096 : Shape := ⟨4, ![64, 1, 1, 4096]⟩
abbrev S64x4096 : Shape := ⟨2, ![64, 4096]⟩
abbrev S64 : Shape := ⟨1, ![64]⟩
abbrev S64x1 : Shape := ⟨2, ![64, 1]⟩

abbrev nBuf : Space → Nat
  | .hbm => 9
  | .vmem => 8
  | .smem => 0
  | _ => 0

abbrev bufTy : (tb : Table) → Fin (tcTables nBuf tb) → BufTy
  | .hbm, ⟨0, _⟩ => ⟨S2048x4x4096, .f32⟩
  | .hbm, ⟨1, _⟩ => ⟨S2048x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S2048x4x1x4096, .f32⟩
  | .hbm, ⟨7, _⟩ => ⟨S2048x4x1x4096, .f32⟩
  | .hbm, ⟨8, _⟩ => ⟨S2048x4x4096, .f32⟩
  | .local _ .vmem, ⟨0, _⟩ => ⟨S64x1x1x4096, .f32⟩
  | .local _ .vmem, ⟨1, _⟩ => ⟨S64x1x1x4096, .f32⟩
  | .local _ .vmem, ⟨2, _⟩ => ⟨S64x4096, .f32⟩
  | .local _ .vmem, ⟨3, _⟩ => ⟨S64x4096, .f32⟩
  | .local _ .vmem, ⟨4, _⟩ => ⟨S1x4096, .f32⟩
  | .local _ .vmem, ⟨5, _⟩ => ⟨S1x4096, .f32⟩
  | .local _ .vmem, ⟨6, _⟩ => ⟨S64x1x1x4096, .f32⟩
  | .local _ .vmem, ⟨7, _⟩ => ⟨S64x1x1x4096, .f32⟩
  | _, _ => ⟨S2048x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096_S1x4096 : S4096.ShapeCasts S1x4096
  shapeCasts_S2048x4x4096_S2048x4x1x4096 : S2048x4x4096.ShapeCasts S2048x4x1x4096
  shapeCasts_S2048x4x1x4096_S2048x4x4096 : S2048x4x1x4096.ShapeCasts S2048x4x4096
  inb_S64x1x1x4096_S64x1x1x4096_0_0_0_0 : ∀ a, (![0, 0, 0, 0] : Fin 4 → Nat) a + S64x1x1x4096.size a ≤ S64x1x1x4096.size a
  h_S64x1x1x4096 : 0 < S64x1x1x4096.numel
  shapeCasts_S64x1x1x4096_S64x4096 : S64x1x1x4096.ShapeCasts S64x4096
  inb_S64x4096_S64x4096_0_0 : ∀ a, (![0, 0] : Fin 2 → Nat) a + S64x4096.size a ≤ S64x4096.size a
  h_S64x4096 : 0 < S64x4096.numel
  reduces_S64x4096_S64 : S64x4096.Reduces [1] S64
  shapeCasts_S64_S64x1 : S64.ShapeCasts S64x1
  broadcasts_S64x1_S64x4096 : S64x1.Broadcasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  shapeCasts_S64x4096_S64x1x1x4096 : S64x4096.ShapeCasts S64x1x1x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1x1x4096.size a ≤ S2048x4x1x4096.size a
  hwx0_0 : ∀ i : grid0.Coords, EltTy.bits .f32 = 32 ∨ (Rect.block (s := S2048x4x1x4096) S64x1x1x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S2048x4096.size a
  hwx0_1 : ∀ i : grid0.Coords, EltTy.bits .f32 = 32 ∨ (Rect.block (s := S2048x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1x1x4096.size a ≤ S2048x4x1x4096.size a
  hwx0_4 : ∀ i : grid0.Coords, EltTy.bits .f32 = 32 ∨ (Rect.block (s := S2048x4x1x4096) S64x1x1x4096.size (cc0_transform_4 i) (hinb0_4 i)).WholeWords (EltTy.packing .f32)

variable [Facts₀]

abbrev win0_0 : Pipeline.Window sig grid0 :=
  Pipeline.Window.ofSpec (Memref.whole main_call0_v2) S64x1x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S64x1x1x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4x4096 : Shape := ⟨3, ![2048, 4, 4096]⟩
abbrev S2048x4096 : Shape := ⟨2, ![2048, 4096]⟩
abbrev S4096 : Shape := ⟨1, ![4096]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x1x4096 : Shape := ⟨3, ![2048, 1, 4096]⟩
abbrev S2048x4 : Shape := ⟨2, ![2048, 4]⟩
abbrev S2048x4x1 : Shape := ⟨3, ![2048, 4, 1]⟩
abbrev S1x1x4096 : Shape := ⟨3, ![1, 1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S2048x4x4096, .f32⟩
  | .hbm, ⟨1, _⟩ => ⟨S2048x4096, .f32⟩
  | .hbm, ⟨2, _⟩ => ⟨S4096, .f32⟩
  | .hbm, ⟨3, _⟩ => ⟨S4096, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S2048x4096, .f32⟩
  | .hbm, ⟨24, _⟩ => ⟨S2048x4096, .i1⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S2048x1x4096, .f32⟩
  | .hbm, ⟨29, _⟩ => ⟨S2048x4x4096, .f32⟩
  | .hbm, ⟨30, _⟩ => ⟨S2048x4x4096, .f32⟩
  | .hbm, ⟨31, _⟩ => ⟨S_, .f32⟩
  | .hbm, ⟨32, _⟩ => ⟨S2048x4, .f32⟩
  | .hbm, ⟨33, _⟩ => ⟨S2048x4x1, .f32⟩
  | .hbm, ⟨34, _⟩ => ⟨S_, .f32⟩
  | .hbm, ⟨35, _⟩ => ⟨S2048x4x1, .f32⟩
  | .hbm, ⟨36, _⟩ => ⟨S2048x4x1, .f32⟩
  | .hbm, ⟨37, _⟩ => ⟨S2048x4x4096, .f32⟩
  | .hbm, ⟨38, _⟩ => ⟨S2048x4x4096, .f32⟩
  | .hbm, ⟨39, _⟩ => ⟨S2048x4x4096, .f32⟩
  | .hbm, ⟨40, _⟩ => ⟨S_, .f32⟩
  | .hbm, ⟨41, _⟩ => ⟨S2048x4, .f32⟩
  | .hbm, ⟨42, _⟩ => ⟨S2048x4x1, .f32⟩
  | .hbm, ⟨43, _⟩ => ⟨S_, .f32⟩
  | .hbm, ⟨44, _⟩ => ⟨S2048x4x1, .f32⟩
  | .hbm, ⟨45, _⟩ => ⟨S2048x4x1, .f32⟩
  | .hbm, ⟨46, _⟩ => ⟨S2048x4x4096, .f32⟩
  | .hbm, ⟨47, _⟩ => ⟨S2048x4x4096, .f32⟩
  | .hbm, ⟨48, _⟩ => ⟨S_, .f32⟩
  | .hbm, ⟨49, _⟩ => ⟨S2048x4x1, .f32⟩
  | .hbm, ⟨50, _⟩ => ⟨S2048x4x1, .f32⟩
  | .hbm, ⟨51, _⟩ => ⟨S2048x4x1, .f32⟩
  | .hbm, ⟨52, _⟩ => ⟨S2048x4x4096, .f32⟩
  | .hbm, ⟨53, _⟩ => ⟨S2048x4x4096, .f32⟩
  | .hbm, ⟨54, _⟩ => ⟨S1x1x4096, .f32⟩
  | .hbm, ⟨55, _⟩ => ⟨S2048x4x4096, .f32⟩
  | .hbm, ⟨56, _⟩ => ⟨S2048x4x4096, .f32⟩
  | .hbm, ⟨57, _⟩ => ⟨S1x1x4096, .f32⟩
  | .hbm, ⟨58, _⟩ => ⟨S2048x4x4096, .f32⟩
  | .hbm, ⟨59, _⟩ => ⟨S2048x4x4096, .f32⟩
  | _, _ => ⟨S2048x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x4096_0 : S2048.BroadcastsInDim S2048x4096 (![0] : Fin 1 → Fin S2048x4096.rank)
  bcast_S_S2048x4096 : S_.BroadcastsInDim S2048x4096 (![] : Fin 0 → Fin S2048x4096.rank)
  bcast_S2048x4096_S2048x1x4096_0_2 : S2048x4096.BroadcastsInDim S2048x1x4096 (![0, 2] : Fin 2 → Fin S2048x1x4096.rank)
  bcast_S2048x1x4096_S2048x4x4096_0_1_2 : S2048x1x4096.BroadcastsInDim S2048x4x4096 (![0, 1, 2] : Fin 3 → Fin S2048x4x4096.rank)
  reducesTo_S2048x4x4096_S2048x4_d2 : S2048x4x4096.ReducesTo [2] S2048x4
  bcast_S2048x4_S2048x4x1_0_1 : S2048x4.BroadcastsInDim S2048x4x1 (![0, 1] : Fin 2 → Fin S2048x4x1.rank)
  bcast_S_S2048x4x1 : S_.BroadcastsInDim S2048x4x1 (![] : Fin 0 → Fin S2048x4x1.rank)
  bcast_S2048x4x1_S2048x4x4096_0_1_2 : S2048x4x1.BroadcastsInDim S2048x4x4096 (![0, 1, 2] : Fin 3 → Fin S2048x4x4096.rank)
  bcast_S4096_S1x1x4096_2 : S4096.BroadcastsInDim S1x1x4096 (![2] : Fin 1 → Fin S1x1x4096.rank)
  bcast_S1x1x4096_S2048x4x4096_0_1_2 : S1x1x4096.BroadcastsInDim S2048x4x4096 (![0, 1, 2] : Fin 3 → Fin S2048x4x4096.rank)
  gather_S2048x4096_S2048x1_S2048x4096_1_0_n_n_0_1_14096_wf : GatherDims.WF S2048x4096 S2048x1 S2048x4096 [1] [0] [] [0] [] 1 ![1, 4096]

variable [Facts₀]

def gather_S2048x4096_S2048x1_S2048x4096_1_0_n_n_0_1_14096 : GatherDims S2048x4096 S2048x1 S2048x4096 where
  offsetDims := [1]
  collapsedSliceDims := [0]
  operandBatchingDims := []
  startIndicesBatchingDims := []
  startIndexMap := [0]
  indexVectorDim := 1
  sliceSizes := ![1, 4096]
  wf := gather_S2048x4096_S2048x1_S2048x4096_1_0_n_n_0_1_14096_wf

class Facts : Prop extends Facts₀ where

variable [Facts]
-- ==== Proof.Algebra.lean ====
/-
  The arithmetic on the extended reals that joins the two spellings of a layer normalisation.

  One side scales the centred entry by the reciprocal square root of (variance + epsilon), the other divides it by
  the square root of the same number. The two agree at every extended real numerator as soon as the number under
  the root is positive (a positive real, or +infinity): there the reciprocal square root is the inverse of the
  square root, and a quotient by a nonzero number is the product with its inverse. The number under the root is
  positive because a variance is a sum of squares scaled by a positive constant, hence nonnegative at every extended
  real, and epsilon is a positive real.
-/
import Idealize.ShloMosaic.PureOps.Ideal
import Idealize.ShloMosaic.PureOps.Ideal.Laws

noncomputable section

open scoped BigOperators

namespace Cert.LayerNorm

open Idealize.ShloMosaic

/-- The divisor `4096.0` denotes the real 4096. -/
theorem ofBits_4096 : Ideal.ofBits .f32 0x45800000#32 = ((4096 : ℝ) : EReal) := by
  simp [Ideal.ofBits, Ideal.ieee, -EReal.coe_mul]; norm_num

/-- The epsilon's pattern denotes a positive extended real. -/
theorem eps_pos : (0 : EReal) < Ideal.ofBits .f32 0x3727C5AC#32 := by
  simp [Ideal.ofBits, Ideal.ieee, -EReal.coe_mul]

/-- A square is nonnegative at every extended real (the two infinities square to +infinity). -/
theorem mul_self_nonneg (x : EReal) : 0 ≤ x * x := by
  induction x using EReal.rec with
  | bot => simp
  | top => simp
  | coe r => rw [← EReal.coe_mul]; exact_mod_cast _root_.mul_self_nonneg r

/-- A nonnegative extended real divided by 4096 is nonnegative. -/
theorem div4096_nonneg {s : EReal} (h : 0 ≤ s) : 0 ≤ Ideal.div s (Ideal.ofBits .f32 0x45800000#32) := by
  rw [ofBits_4096, Ideal.div_coe (by norm_num)]
  exact mul_nonneg h (by exact_mod_cast (by norm_num : (0 : ℝ) ≤ 1 / 4096))

/-- THE LAW: for a positive number under the root, scaling by the reciprocal square root is dividing by the
    square root, whatever the numerator. -/
theorem mul_rsqrt_eq_div_sqrt (a v : EReal) (hv : 0 < v) : a * Ideal.rsqrt v = Ideal.div a (Ideal.sqrt v) := by
  induction v using EReal.rec with
  | bot => exact absurd hv (by simp)
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]

end Cert.LayerNorm

end
-- ==== Proof.Spec.lean ====
/-
  The layer normalisation of one row, as a function of the row.

  A row is 4096 extended reals. Its mean is the sum over 4096; an entry's deviation is the entry less the mean; the
  variance is the mean of the squared deviations; the number under the root is the variance plus epsilon. One program
  scales the deviation by the reciprocal square root of that number, the other divides the deviation by its square
  root; both then multiply by the entry's gamma and add its beta. The number under the root is positive at every row
  (a sum of squares is nonnegative, and epsilon is positive), so the two entries are equal.
-/
import proofs.«173756_g66700842107399_cont_9to1_m_125_4_alg».proof.Proof.Algebra

noncomputable section

open scoped BigOperators

namespace Cert.LayerNorm

open Idealize.ShloMosaic

/-- The mean of a row: its sum over 4096. -/
def rowMean (h : Fin 4096 → EReal) : EReal := Ideal.div (∑ k, h k) (Ideal.ofBits .f32 0x45800000#32)

/-- An entry's deviation from its row's mean. -/
def dev (h : Fin 4096 → EReal) (k : Fin 4096) : EReal := h k - rowMean h

/-- The variance plus epsilon: the number under the root. -/
def underRoot (h : Fin 4096 → EReal) : EReal :=
  rowMean (fun k => dev h k * dev h k) + Ideal.ofBits .f32 0x3727C5AC#32

/-- The normalised entry, the deviation scaled by the reciprocal square root. -/
def entryMul (h : Fin 4096 → EReal) (g b : EReal) (k : Fin 4096) : EReal :=
  dev h k * Ideal.rsqrt (underRoot h) * g + b

/-- The normalised entry, the deviation divided by the square root. -/
def entryDiv (h : Fin 4096 → EReal) (g b : EReal) (k : Fin 4096) : EReal :=
  Ideal.div (dev h k) (Ideal.sqrt (underRoot h)) * g + b

/-- The number under the root is positive, whatever the row holds. -/
theorem underRoot_pos (h : Fin 4096 → EReal) : 0 < underRoot h :=
  lt_of_lt_of_le eps_pos
    (le_add_of_nonneg_left (div4096_nonneg (Finset.sum_nonneg fun k _ => mul_self_nonneg (dev h k))))

/-- The two spellings of the normalised entry agree. -/
theorem entryMul_eq_entryDiv (h : Fin 4096 → EReal) (g b : EReal) (k : Fin 4096) :
    entryMul h g b k = entryDiv h g b k := by
  unfold entryMul entryDiv
  rw [mul_rsqrt_eq_div_sqrt _ _ (underRoot_pos h)]

end Cert.LayerNorm

end
-- ==== Proof.LibReadAt.lean ====
/-
  Layout operations, a lane sum and a plain matrix product read at an index given by coordinates, at the extended reals:
  a reshape that merges or splits the two leading axes (row-major: row g·a + i), a vector viewed as a column, a matrix
  under two leading unit axes, a per-row scalar broadcast over a stack of matrices, the sum along the lanes of a matrix,
  and an m×k by k×n product into a zero accumulator.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReadAt

open Idealize.ShloMosaic Idealize.ShloMosaic.ValueIdx

variable {α : Type}

/-! ## Shape casts that merge or split the two leading axes (row-major: row `g * a + i`) -/

/-- A `[G, a, b]` array cast to `[R, b]` (R = G·a) reads, at row `r = g·a + i` and column `j`, the operand at `(g, i, j)`. -/
theorem shapeCast_gab_rb_apply {G a b R : ℕ} (x : (⟨3, ![G, a, b]⟩ : Shape).Idx → α)
    (h : (⟨3, ![G, a, b]⟩ : Shape).ShapeCasts ⟨2, ![R, b]⟩) (g : Fin G) (i : Fin a) (j : Fin b) (r : Fin R)
    (hr : r.val = g.val * a + i.val) :
    shapeCast ⟨2, ![R, b]⟩ x h (ix2 r j) = x (ix3 g i j) :=
  shapeCast_apply x h _ _ (by
    rw [Shape.rowMajor_val_three, Shape.rowMajor_val_two]
    show (g.val * a + i.val) * b + j.val = r.val * b + j.val
    rw [hr])

/-- An `[R, b]` array cast to `[G, a, b]` (R = G·a) reads, at `(g, i, j)`, the operand at row `r = g·a + i`, column `j`. -/
theorem shapeCast_rb_gab_apply {G a b R : ℕ} (x : (⟨2, ![R, b]⟩ : Shape).Idx → α)
    (h : (⟨2, ![R, b]⟩ : Shape).ShapeCasts ⟨3, ![G, a, b]⟩) (g : Fin G) (i : Fin a) (j : Fin b) (r : Fin R)
    (hr : r.val = g.val * a + i.val) :
    shapeCast ⟨3, ![G, a, b]⟩ x h (ix3 g i j) = x (ix2 r j) :=
  shapeCast_apply x h _ _ (by
    rw [Shape.rowMajor_val_three, Shape.rowMajor_val_two]
    show r.val * b + j.val = (g.val * a + i.val) * b + j.val
    rw [hr])

/-! ## The keepdims column forms -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu', Nat.zero_mul, Nat.zero_add])

/-! ## A per-row scalar `[a, 1, 1]` broadcast over `[a, b, c]` -/

theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## A sum along the lanes of a matrix -/

/-- The index a one-axis reduction of a matrix along axis 1 inserts the coordinate into. -/
theorem lift_axis1 {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <add>` of an `[a, b]` vector along axis 1, at row `r`, is the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-! ## A plain matrix product into the zero accumulator -/

/-- `[m, k] × [k, n]` into the zero splat, at `(i, j)`: the sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.ReadAt

end
-- ==== Proof.LibColumnBroadcast.lean ====
/-
  A column broadcast along the lanes, read at an index.

  A `[a, 1]` array broadcast to `[a, b]` holds, in every lane of row `p`, the column's entry of row `p`. Shape-generic
  in `a` and `b` and in the element type; the companion of the library's one-row form (`[1, b]` to `[a, b]`).
-/
import Idealize.ShloMosaic.Lib.Pipeline.Value
import Idealize.ShloMosaic.Lib.ValueIdx

namespace Cert.LibColumnBroadcast

open Idealize.ShloMosaic Idealize.ShloMosaic.ValueIdx

/-- A column `[a, 1]` broadcast along the lanes to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibUnitAxes.lean ====
/-
  Shape casts that insert or remove unit axes in the middle of a shape, read at an index given by coordinates.

  A `[a, b]` array and the `[a, 1, 1, b]` array with two unit axes between its axes hold the same entries, entry
  `(i, j)` at `(i, 0, 0, j)`; likewise a `[a, b, c]` array and the `[a, b, 1, c]` array with one unit axis before the last.
  Both follow from the row-major position of an index being unchanged by a unit axis. Generic in the extents and in the
  element type.
-/
import Idealize.ShloMosaic.Lib.ValueIdx
import Idealize.ShloMosaic.Lib.Pipeline.Value

namespace Cert.LibUnitAxes

open Idealize.ShloMosaic Idealize.ShloMosaic.ValueIdx

variable {α : Type}

/-- An `[a, 1, 1, b]` array cast to `[a, b]` reads, at `(i, j)`, the operand at `(i, 0, 0, j)`. -/
theorem shapeCast_a11b_ab_apply {a b : ℕ} (x : (⟨4, ![a, 1, 1, b]⟩ : Shape).Idx → α)
    (h : (⟨4, ![a, 1, 1, b]⟩ : Shape).ShapeCasts ⟨2, ![a, b]⟩) (i : Fin a) (j : Fin b) :
    shapeCast ⟨2, ![a, b]⟩ x h (ix2 i j) = x (ix4 i (0 : Fin 1) (0 : Fin 1) j) :=
  shapeCast_apply x h _ _ (by
    rw [Shape.rowMajor_val_four, Shape.rowMajor_val_two]
    show ((i.val * 1 + 0) * 1 + 0) * b + j.val = i.val * b + j.val
    simp only [Nat.mul_one, Nat.add_zero])

/-- An `[a, b]` array cast to `[a, 1, 1, b]` reads, at `(i, u, u', j)`, the operand at `(i, j)`. -/
theorem shapeCast_ab_a11b_apply {a b : ℕ} (x : (⟨2, ![a, b]⟩ : Shape).Idx → α)
    (h : (⟨2, ![a, b]⟩ : Shape).ShapeCasts ⟨4, ![a, 1, 1, b]⟩) (i : Fin a) (u u' : Fin 1) (j : Fin b) :
    shapeCast ⟨4, ![a, 1, 1, b]⟩ x h (ix4 i u u' j) = x (ix2 i j) :=
  shapeCast_apply x h _ _ (by
    have hu : u.val = 0 := by omega
    have hu' : u'.val = 0 := by omega
    rw [Shape.rowMajor_val_four, Shape.rowMajor_val_two]
    show i.val * b + j.val = ((i.val * 1 + u.val) * 1 + u'.val) * b + j.val
    simp only [hu, hu', Nat.mul_one, Nat.add_zero])

/-- An `[a, b, c]` array cast to `[a, b, 1, c]` reads, at `(i, j, u, k)`, the operand at `(i, j, k)`. -/
theorem shapeCast_abc_ab1c_apply {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_four, Shape.rowMajor_val_three]
    show (i.val * b + j.val) * c + k.val = ((i.val * b + j.val) * 1 + u.val) * c + k.val
    simp only [hu, Nat.mul_one, Nat.add_zero])

/-- An `[a, b, 1, c]` array cast to `[a, b, c]` reads, at `(i, j, k)`, the operand at `(i, j, 0, k)`. -/
theorem shapeCast_ab1c_abc_apply {a b c : ℕ} (x : (⟨4, ![a, b, 1, c]⟩ : Shape).Idx → α)
    (h : (⟨4, ![a, b, 1, c]⟩ : Shape).ShapeCasts ⟨3, ![a, b, c]⟩) (i : Fin a) (j : Fin b) (k : Fin c) :
    shapeCast ⟨3, ![a, b, c]⟩ x h (ix3 i j k) = x (ix4 i j (0 : Fin 1) k) :=
  shapeCast_apply x h _ _ (by
    rw [Shape.rowMajor_val_four, Shape.rowMajor_val_three]
    show ((i.val * b + j.val) * 1 + 0) * c + k.val = (i.val * b + j.val) * c + k.val
    simp only [Nat.mul_one, Nat.add_zero])

end Cert.LibUnitAxes
-- ==== Proof.KPayload.lean ====
/-
  The kernel body's arithmetic, read at an index.

  The body adds the input block (its two unit axes cast away) to the positional block, and normalises each of the 64
  rows: the row's sum along the lanes over 4096 as a column, the entries less that column broadcast back, the same
  column statistic of their squares plus epsilon under a reciprocal square root, the product of the two, then gamma's
  and beta's one row broadcast over the 64 rows, and the unit axes cast back in. Entry (r, k) of the result is therefore
  the normalised entry k of row r of the summed block, with gamma's and beta's entry k.
-/
import proofs.«173756_g66700842107399_cont_9to1_m_125_4_alg».proof.Proof.Gen.KernelIdeal.Skeleton
import proofs.«173756_g66700842107399_cont_9to1_m_125_4_alg».proof.Proof.Spec
import proofs.«173756_g66700842107399_cont_9to1_m_125_4_alg».proof.Proof.LibReadAt
import proofs.«173756_g66700842107399_cont_9to1_m_125_4_alg».proof.Proof.LibColumnBroadcast
import proofs.«173756_g66700842107399_cont_9to1_m_125_4_alg».proof.Proof.LibUnitAxes
import Idealize.ShloMosaic.Lib.ValueIdx
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx Cert.LayerNorm

/-! ## The body's stages -/

/-- The input block, its unit axes cast away, plus the positional block. -/
def bSum (x0 : Vec Ideal S64x1x1x4096 .f32) (x1 : Vec Ideal S64x4096 .f32) : FVec Ideal S64x4096 .f32 :=
  addf (shapeCast S64x4096 x0 shapeCasts_S64x1x1x4096_S64x4096) x1

/-- Each row's lane sum over 4096, as a column. -/
def bMean (h : FVec Ideal S64x4096 .f32) : FVec Ideal S64x1 .f32 :=
  divf (shapeCast S64x1 (multiReduction .add [1] S64 h 0x00000000#32 reduces_S64x4096_S64 (.inl rfl) rfl) shapeCasts_S64_S64x1)
    (broadcast S64x1 (Scalar.ofBits .f32 0x45800000#32))

/-- The entries less their row's mean. -/
def bDev (h : FVec Ideal S64x4096 .f32) : FVec Ideal S64x4096 .f32 :=
  subf h (broadcastTo S64x4096 (bMean h) broadcasts_S64x1_S64x4096)

/-- Each row's reciprocal square root of (variance + epsilon), as a column. -/
def bScale (h : FVec Ideal S64x4096 .f32) : FVec Ideal S64x1 .f32 :=
  rsqrt (addf (bMean (mulf (bDev h) (bDev h))) (broadcast S64x1 (Scalar.ofBits .f32 0x3727C5AC#32)))

/-- The normalised rows, scaled by gamma's row and shifted by beta's, the unit axes cast back in. -/
def bOut (h : FVec Ideal S64x4096 .f32) (x2 x3 : Vec Ideal S1x4096 .f32) : FVec Ideal S64x1x1x4096 .f32 :=
  shapeCast S64x1x1x4096
    (addf (mulf (mulf (bDev h) (broadcastTo S64x4096 (bScale h) broadcasts_S64x1_S64x4096))
        (broadcastTo S64x4096 (shapeCast S1x4096 x2 shapeCasts_S1x4096_S1x4096) broadcasts_S1x4096_S64x4096))
      (broadcastTo S64x4096 (shapeCast S1x4096 x3 shapeCasts_S1x4096_S1x4096) broadcasts_S1x4096_S64x4096))
    shapeCasts_S64x4096_S64x1x1x4096

/-- The body's stored value is the composition of the stages. -/
theorem payload_eq (x0 : Vec Ideal S64x1x1x4096 .f32) (x1 : Vec Ideal S64x4096 .f32) (x2 x3 : Vec Ideal S1x4096 .f32) :
    k0_pay1 (F := Ideal) x0 x1 x2 x3 = bOut (bSum x0 x1) x2 x3 := rfl

/-! ## Each stage at an index -/

theorem bSum_apply (x0 : Vec Ideal S64x1x1x4096 .f32) (x1 : Vec Ideal S64x4096 .f32) (r : Fin 64) (k : Fin 4096) :
    bSum x0 x1 (ix2 r k) = x0 (ix4 r (0 : Fin 1) (0 : Fin 1) k) + x1 (ix2 r k) := by
  show shapeCast S64x4096 x0 shapeCasts_S64x1x1x4096_S64x4096 (ix2 r k) + x1 (ix2 r k) = _
  rw [Cert.LibUnitAxes.shapeCast_a11b_ab_apply]

theorem bMean_apply (h : FVec Ideal S64x4096 .f32) (r : Fin 64) (u : Fin 1) :
    bMean h (ix2 r u) = rowMean (fun k => h (ix2 r k)) := by
  show Ideal.div (shapeCast S64x1 (multiReduction .add [1] S64 h 0x00000000#32 reduces_S64x4096_S64 (.inl rfl) rfl) shapeCasts_S64_S64x1 (ix2 r u))
      (Ideal.ofBits .f32 0x45800000#32) = Ideal.div (∑ k, h (ix2 r k)) (Ideal.ofBits .f32 0x45800000#32)
  rw [Cert.ReadAt.shapeCast_a_a1_apply]
  exact congrArg (fun z => Ideal.div z (Ideal.ofBits .f32 0x45800000#32)) (Cert.ReadAt.laneSum_apply h _ _ _ _ r)

theorem bDev_apply (h : FVec Ideal S64x4096 .f32) (r : Fin 64) (k : Fin 4096) :
    bDev h (ix2 r k) = dev (fun k => h (ix2 r k)) k := by
  show h (ix2 r k) - broadcastTo S64x4096 (bMean h) broadcasts_S64x1_S64x4096 (ix2 r k) = h (ix2 r k) - rowMean (fun k => h (ix2 r k))
  rw [Cert.LibColumnBroadcast.broadcastTo_column_apply, bMean_apply]

theorem bScale_apply (h : FVec Ideal S64x4096 .f32) (r : Fin 64) (u : Fin 1) :
    bScale h (ix2 r u) = Ideal.rsqrt (underRoot (fun k => h (ix2 r k))) := by
  show Ideal.rsqrt (bMean (mulf (bDev h) (bDev h)) (ix2 r u) + Ideal.ofBits .f32 0x3727C5AC#32) = _
  rw [bMean_apply]
  have e : (fun k => mulf (bDev h) (bDev h) (ix2 r k)) = fun k => dev (fun k => h (ix2 r k)) k * dev (fun k => h (ix2 r k)) k :=
    funext fun k => by rw [mulf_apply, bDev_apply]
  rw [e]
  rfl

theorem bOut_apply (h : FVec Ideal S64x4096 .f32) (x2 x3 : Vec Ideal S1x4096 .f32) (r : Fin 64) (u u' : Fin 1) (k : Fin 4096) :
    bOut h x2 x3 (ix4 r u u' k)
      = entryMul (fun k => h (ix2 r k)) (x2 (ix2 (0 : Fin 1) k)) (x3 (ix2 (0 : Fin 1) k)) k := by
  unfold bOut
  rw [Cert.LibUnitAxes.shapeCast_ab_a11b_apply]
  show bDev h (ix2 r k) * broadcastTo S64x4096 (bScale h) broadcasts_S64x1_S64x4096 (ix2 r k)
        * broadcastTo S64x4096 (shapeCast S1x4096 x2 shapeCasts_S1x4096_S1x4096) broadcasts_S1x4096_S64x4096 (ix2 r k)
      + broadcastTo S64x4096 (shapeCast S1x4096 x3 shapeCasts_S1x4096_S1x4096) broadcasts_S1x4096_S64x4096 (ix2 r k) = _
  rw [shapeCast_self, shapeCast_self, broadcastTo_1b_ab_apply, broadcastTo_1b_ab_apply,
    Cert.LibColumnBroadcast.broadcastTo_column_apply, bDev_apply, bScale_apply]
  rfl

/-- THE PAYLOAD AT AN INDEX: entry (r, k) of what the body stores is the normalised entry k of row r of the summed block. -/
theorem payload_apply (x0 : Vec Ideal S64x1x1x4096 .f32) (x1 : Vec Ideal S64x4096 .f32) (x2 x3 : Vec Ideal S1x4096 .f32)
    (r : Fin 64) (u u' : Fin 1) (k : Fin 4096) :
    k0_pay1 (F := Ideal) x0 x1 x2 x3 (ix4 r u u' k)
      = entryMul (fun k' => x0 (ix4 r (0 : Fin 1) (0 : Fin 1) k') + x1 (ix2 r k')) (x2 (ix2 (0 : Fin 1) k)) (x3 (ix2 (0 : Fin 1) k)) k := by
  rw [payload_eq, bOut_apply]
  have e : (fun k' => bSum x0 x1 (ix2 r k')) = fun k' => x0 (ix4 r (0 : Fin 1) (0 : Fin 1) k') + x1 (ix2 r k') :=
    funext fun k' => bSum_apply x0 x1 r k'
  rw [e]

end Cert.KernelIdeal.Hand

end
-- ==== Proof.KValue.lean ====
/-
  What the kernel's program leaves in its result buffer.

  The region's grid has 32 × 4 points; point (i, j) stages rows 64·i … 64·i + 63 of batch entry j of the input (viewed
  with a unit axis before the last), the same rows of the positional table, and gamma's and beta's one row, and writes
  back the same rows of batch entry j of the result. An entry of the written block depends only on its own row of the
  input block and of the table block, and both rows lie whole inside the blocks, so every block is the restriction of
  ONE function of the whole arrays: at (s, b, ·, k) the normalised entry k of the row x(s, b, ·) + table(s, ·) with
  gamma's and beta's entry k. The blocks tile the result array (the point covering row s of batch entry b is
  (s / 64, b)), so the array ends holding that function; the line after the region casts the unit axis away, the
  lines before it had cast it in and had viewed gamma and beta as one row.
-/
import proofs.«173756_g66700842107399_cont_9to1_m_125_4_alg».proof.Proof.Gen.KernelIdeal.Frame
import proofs.«173756_g66700842107399_cont_9to1_m_125_4_alg».proof.Proof.KPayload
import Idealize.ShloMosaic.Lib.Pipeline.Value
import Idealize.ShloMosaic.Lib.StableHlo.Run
import Idealize.ShloMosaic.Lib.ValueLayout

set_option maxRecDepth 16384

noncomputable section

open scoped BigOperators

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## The arrays as the region finds them -/

theorem V_x4 (c : Dev nD) : (V m c main_call0_v2 : S2048x4x1x4096.Idx → EReal)
    = shapeCast S2048x4x1x4096 (m ((c : Thread nD τ).loc main_arg0)) shapeCasts_S2048x4x4096_S2048x4x1x4096 := by
  show StableHlo.after hostOps0 (fun b => m (c, b)) (Proc.devRef .tc main_call0_v2) = _
  after_results
  rfl

theorem V_gamma2 (c : Dev nD) : (V m c main_call0_v0 : S1x4096.Idx → EReal)
    = shapeCast S1x4096 (m ((c : Thread nD τ).loc main_arg2)) shapeCasts_S4096_S1x4096 := by
  show StableHlo.after hostOps0 (fun b => m (c, b)) (Proc.devRef .tc main_call0_v0) = _
  after_results
  rfl

theorem V_beta2 (c : Dev nD) : (V m c main_call0_v1 : S1x4096.Idx → EReal)
    = shapeCast S1x4096 (m ((c : Thread nD τ).loc main_arg3)) shapeCasts_S4096_S1x4096 := by
  show StableHlo.after hostOps0 (fun b => m (c, b)) (Proc.devRef .tc main_call0_v1) = _
  after_results
  rfl

/-! ## The printed index maps, decided once over the grid -/

theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 2) = win0_4.index t (0 : Fin 4) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 4) = 0 ∧ win0_4.index t (3 : Fin 4) = 0
    ∧ win0_4.index t (0 : Fin 4) ≤ 31 ∧ win0_4.index t (1 : Fin 4) ≤ 3 :=
  (by decide +kernel : ∀ t : Fin grid0.N, _)

theorem idx_onto : ∀ (q0 : Fin 32) (q1 : Fin 4), ∃ t : Fin cfg0.N, win0_4.index t = ![q0.val, q1.val, 0, 0] :=
  (by decide +kernel : ∀ (q0 : Fin 32) (q1 : Fin 4), ∃ t : Fin grid0.N, win0_4.index t = ![q0.val, q1.val, 0, 0])

/-! ## The whole-array function -/

def G4c (X : S2048x4x1x4096.Idx → EReal) (P : S2048x4096.Idx → EReal) (g b : S1x4096.Idx → EReal)
    (s : Fin 2048) (bb : Fin 4) (k : Fin 4096) : EReal :=
  LayerNorm.entryMul (fun k' => X (ix4 s bb (0 : Fin 1) k') + P (ix2 s k')) (g (ix2 (0 : Fin 1) k)) (b (ix2 (0 : Fin 1) k)) k

def G4 (X : S2048x4x1x4096.Idx → EReal) (P : S2048x4096.Idx → EReal) (g b : S1x4096.Idx → EReal) : S2048x4x1x4096.Idx → EReal :=
  fun i => G4c X P g b (i 0) (i 1) (i 3)

theorem G4_at (X : S2048x4x1x4096.Idx → EReal) (P : S2048x4096.Idx → EReal) (g b : S1x4096.Idx → EReal)
    (i : S2048x4x1x4096.Idx) (s : Fin 2048) (bb : Fin 4) (k : Fin 4096)
    (h0 : (i 0).val = s.val) (h1 : (i 1).val = bb.val) (h3 : (i 3).val = k.val) :
    G4 X P g b i = G4c X P g b s bb k := by
  have e0 : (i 0 : Fin 2048) = s := Fin.ext h0
  have e1 : (i 1 : Fin 4) = bb := Fin.ext h1
  have e3 : (i 3 : Fin 4096) = k := Fin.ext h3
  show G4c X P g b (i 0) (i 1) (i 3) = _
  rw [e0, e1, e3]

/-! ## Each input window's block at a point, read off its array -/

theorem iblk0_apply (c : Dev nD) (t : Fin cfg0.N) (y : S64x1x1x4096.Idx) (i : S2048x4x1x4096.Idx)
    (h0 : (i 0).val = win0_0.index t (0 : Fin 4) * 64 + (y 0).val) (h1 : (i 1).val = win0_0.index t (1 : Fin 4) * 1 + (y 1).val)
    (h2 : (i 2).val = win0_0.index t (2 : Fin 4) * 1 + (y 2).val) (h3 : (i 3).val = win0_0.index t (3 : Fin 4) * 4096 + (y 3).val) :
    (iblk m c 0 t : S64x1x1x4096.Idx → EReal) y = (V m c main_call0_v2 : S2048x4x1x4096.Idx → EReal) i := by
  unfold iblk
  rw [View.read_apply]
  show V m c main_call0_v2 _ = V m c main_call0_v2 _
  refine congrArg _ (funext fun a => Fin.ext ?_)
  match a with
  | ⟨0, _⟩ => show win0_0.index t (0 : Fin 4) * 64 + 1 * (y 0).val = (i 0).val; omega
  | ⟨1, _⟩ => show win0_0.index t (1 : Fin 4) * 1 + 1 * (y 1).val = (i 1).val; omega
  | ⟨2, _⟩ => show win0_0.index t (2 : Fin 4) * 1 + 1 * (y 2).val = (i 2).val; omega
  | ⟨3, _⟩ => show win0_0.index t (3 : Fin 4) * 4096 + 1 * (y 3).val = (i 3).val; omega

theorem iblk1_apply (c : Dev nD) (t : Fin cfg0.N) (y : S64x4096.Idx) (i : S2048x4096.Idx)
    (h0 : (i 0).val = win0_1.index t (0 : Fin 2) * 64 + (y 0).val) (h1 : (i 1).val = win0_1.index t (1 : Fin 2) * 4096 + (y 1).val) :
    (iblk m c 1 t : S64x4096.Idx → EReal) y = (V m c main_arg1 : S2048x4096.Idx → EReal) i := by
  unfold iblk
  rw [View.read_apply]
  show V m c main_arg1 _ = V m c main_arg1 _
  refine congrArg _ (funext fun a => Fin.ext ?_)
  match a with
  | ⟨0, _⟩ => show win0_1.index t (0 : Fin 2) * 64 + 1 * (y 0).val = (i 0).val; omega
  | ⟨1, _⟩ => show win0_1.index t (1 : Fin 2) * 4096 + 1 * (y 1).val = (i 1).val; omega

theorem iblk2_apply (c : Dev nD) (t : Fin cfg0.N) (y : S1x4096.Idx) (i : S1x4096.Idx)
    (h0 : (i 0).val = win0_2.index t (0 : Fin 2) * 1 + (y 0).val) (h1 : (i 1).val = win0_2.index t (1 : Fin 2) * 4096 + (y 1).val) :
    (iblk m c 2 t : S1x4096.Idx → EReal) y = (V m c main_call0_v0 : S1x4096.Idx → EReal) i := by
  unfold iblk
  rw [View.read_apply]
  show V m c main_call0_v0 _ = V m c main_call0_v0 _
  refine congrArg _ (funext fun a => Fin.ext ?_)
  match a with
  | ⟨0, _⟩ => show win0_2.index t (0 : Fin 2) * 1 + 1 * (y 0).val = (i 0).val; omega
  | ⟨1, _⟩ => show win0_2.index t (1 : Fin 2) * 4096 + 1 * (y 1).val = (i 1).val; omega

theorem iblk3_apply (c : Dev nD) (t : Fin cfg0.N) (y : S1x4096.Idx) (i : S1x4096.Idx)
    (h0 : (i 0).val = win0_3.index t (0 : Fin 2) * 1 + (y 0).val) (h1 : (i 1).val = win0_3.index t (1 : Fin 2) * 4096 + (y 1).val) :
    (iblk m c 3 t : S1x4096.Idx → EReal) y = (V m c main_call0_v1 : S1x4096.Idx → EReal) i := by
  unfold iblk
  rw [View.read_apply]
  show V m c main_call0_v1 _ = V m c main_call0_v1 _
  refine congrArg _ (funext fun a => Fin.ext ?_)
  match a with
  | ⟨0, _⟩ => show win0_3.index t (0 : Fin 2) * 1 + 1 * (y 0).val = (i 0).val; omega
  | ⟨1, _⟩ => show win0_3.index t (1 : Fin 2) * 4096 + 1 * (y 1).val = (i 1).val; omega

/-! ## What a point writes back -/

theorem flushed_eq (c : Dev nD) (t : Fin cfg0.N) :
    (dats m 0 c).flushed 4 t = ((cfg0.win 4).blk t).view.read (Elt Ideal)
      (G4 (V m c main_call0_v2) (V m c main_arg1) (V m c main_call0_v0) (V m c main_call0_v1)) := by
  show (cfg0.win 4).cut (grid0.coords t) ((dats m 0 c).after 4 t) = _
  rw [after0_4]
  unfold out0_4
  rw [View.canon_unit_zero hz4]
  simp only [View.ld_unit_zero (S := S64x1x1x4096) hz4, View.ld_unit_zero (S := S64x4096) hz2, View.ld_unit_zero (S := S1x4096) hz2]
  funext j
  obtain ⟨r, u, u', k, rfl⟩ : ∃ (r : Fin 64) (u u' : Fin 1) (k : Fin 4096), j = ix4 r u u' k := ⟨j 0, j 1, j 2, j 3, eq_ix4 j⟩
  obtain ⟨e00, e01, e02, e03, e10, e11, e20, e21, e30, e31, e42, e43, b0, b1⟩ := idx_facts t
  have hr := r.isLt
  have hk := k.isLt
  have hu : u.val = 0 := by omega
  have hu' : u'.val = 0 := by omega
  show k0_pay1 (iblk m c 0 t) (iblk m c 1 t) (iblk m c 2 t) (iblk m c 3 t) (ix4 r u u' k)
    = G4 (V m c main_call0_v2) (V m c main_arg1) (V m c main_call0_v0) (V m c main_call0_v1) (((cfg0.win 4).blk t).view.emb (ix4 r u u' k))
  rw [G4_at _ _ _ _ _ ⟨win0_4.index t (0 : Fin 4) * 64 + r.val, by omega⟩ ⟨win0_4.index t (1 : Fin 4), by omega⟩ k
    (by show win0_4.index t (0 : Fin 4) * 64 + 1 * r.val = win0_4.index t (0 : Fin 4) * 64 + r.val; omega)
    (by show win0_4.index t (1 : Fin 4) * 1 + 1 * u.val = win0_4.index t (1 : Fin 4); omega)
    (by show win0_4.index t (3 : Fin 4) * 4096 + 1 * k.val = k.val; omega)]
  refine (payload_apply _ _ _ _ r u u' k).trans ?_
  unfold G4c
  have hx0 : ∀ k' : Fin 4096, (iblk m c 0 t : S64x1x1x4096.Idx → EReal) (ix4 r (0 : Fin 1) (0 : Fin 1) k')
      = (V m c main_call0_v2 : S2048x4x1x4096.Idx → EReal) (ix4 (⟨win0_4.index t (0 : Fin 4) * 64 + r.val, by omega⟩ : Fin 2048) (⟨win0_4.index t (1 : Fin 4), by omega⟩ : Fin 4) (0 : Fin 1) k') :=
    fun k' => iblk0_apply m c t _ _
      (by show win0_4.index t (0 : Fin 4) * 64 + r.val = win0_0.index t (0 : Fin 4) * 64 + r.val; omega)
      (by show win0_4.index t (1 : Fin 4) = win0_0.index t (1 : Fin 4) * 1 + 0; omega)
      (by show 0 = win0_0.index t (2 : Fin 4) * 1 + 0; omega)
      (by show k'.val = win0_0.index t (3 : Fin 4) * 4096 + k'.val; omega)
  have hx1 : ∀ k' : Fin 4096, (iblk m c 1 t : S64x4096.Idx → EReal) (ix2 r k')
      = (V m c main_arg1 : S2048x4096.Idx → EReal) (ix2 (⟨win0_4.index t (0 : Fin 4) * 64 + r.val, by omega⟩ : Fin 2048) k') :=
    fun k' => iblk1_apply m c t _ _
      (by show win0_4.index t (0 : Fin 4) * 64 + r.val = win0_1.index t (0 : Fin 2) * 64 + r.val; omega)
      (by show k'.val = win0_1.index t (1 : Fin 2) * 4096 + k'.val; omega)
  have hg : (iblk m c 2 t : S1x4096.Idx → EReal) (ix2 (0 : Fin 1) k) = (V m c main_call0_v0 : S1x4096.Idx → EReal) (ix2 (0 : Fin 1) k) :=
    iblk2_apply m c t _ _ (by show 0 = win0_2.index t (0 : Fin 2) * 1 + 0; omega) (by show k.val = win0_2.index t (1 : Fin 2) * 4096 + k.val; omega)
  have hb : (iblk m c 3 t : S1x4096.Idx → EReal) (ix2 (0 : Fin 1) k) = (V m c main_call0_v1 : S1x4096.Idx → EReal) (ix2 (0 : Fin 1) k) :=
    iblk3_apply m c t _ _ (by show 0 = win0_3.index t (0 : Fin 2) * 1 + 0; omega) (by show k.val = win0_3.index t (1 : Fin 2) * 4096 + k.val; omega)
  simp only [hx0, hx1, hg, hb]

/-! ## The blocks cover the result array -/

theorem mem_blk (t : Fin cfg0.N) (i : S2048x4x1x4096.Idx) :
    i ∈ ((cfg0.win 4).blk t).view.set ↔ ∀ a : Fin 4, win0_4.index t a * S64x1x1x4096.size a ≤ (i a).val
      ∧ (i a).val < win0_4.index t a * S64x1x1x4096.size a + S64x1x1x4096.size a := by
  show i ∈ ((View.whole main_call0_v3).slice (win0_4.rect t)).set ↔ _
  rw [View.set_slice_whole, Rect.mem_set_unit]
  exact Iff.rfl

theorem cover (i : S2048x4x1x4096.Idx) :
    ∃ t : Fin cfg0.N, (cfg0.win 4).flush t = true ∧ i ∈ ((cfg0.win 4).blk t).view.set := by
  have hi0 : (i 0).val < 2048 := (i 0).isLt
  have hi1 : (i 1).val < 4 := (i 1).isLt
  have hi2 : (i 2).val < 1 := (i 2).isLt
  have hi3 : (i 3).val < 4096 := (i 3).isLt
  obtain ⟨t, ht⟩ := idx_onto ⟨(i 0).val / 64, by omega⟩ ⟨(i 1).val, by omega⟩
  have q0 : win0_4.index t (0 : Fin 4) = (i 0).val / 64 := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 64 ≤ (i 0).val ∧ (i 0).val < win0_4.index t (0 : Fin 4) * 64 + 64; omega
  | ⟨1, _⟩ => show win0_4.index t (1 : Fin 4) * 1 ≤ (i 1).val ∧ (i 1).val < win0_4.index t (1 : Fin 4) * 1 + 1; omega
  | ⟨2, _⟩ => show win0_4.index t (2 : Fin 4) * 1 ≤ (i 2).val ∧ (i 2).val < win0_4.index t (2 : Fin 4) * 1 + 1; omega
  | ⟨3, _⟩ => show win0_4.index t (3 : Fin 4) * 4096 ≤ (i 3).val ∧ (i 3).val < win0_4.index t (3 : Fin 4) * 4096 + 4096; omega

/-- The result array of the region after the run. -/
theorem final4 (c : Dev nD) : (dats m 0 c).arrAt 4 cfg0.N
    = G4 (V m c main_call0_v2) (V m c main_arg1) (V m c main_call0_v0) (V m c main_call0_v1) :=
  (dats m 0 c).arrAt_eq_of_cover 4 _ (fun t _ => flushed_eq m c t) cover

/-! ## The line after the region, and the program's result -/

/-- The program's result as a function of its four arguments. -/
def kernelOut (x : S2048x4x4096.Idx → EReal) (pe : S2048x4096.Idx → EReal) (g b : S4096.Idx → EReal) : S2048x4x4096.Idx → EReal :=
  shapeCast S2048x4x4096
    (G4 (shapeCast S2048x4x1x4096 x shapeCasts_S2048x4x4096_S2048x4x1x4096) pe
      (shapeCast S1x4096 g shapeCasts_S4096_S1x4096) (shapeCast S1x4096 b shapeCasts_S4096_S1x4096))
    shapeCasts_S2048x4x1x4096_S2048x4x4096

theorem tail_eq (c : Dev nD) :
    (Pipeline.afterTail₀ cfgs (dats m) 0 (V0 m) [hostOps1] c main_v0 : S2048x4x4096.Idx → EReal)
      = kernelOut (m ((c : Thread nD τ).loc main_arg0)) (m ((c : Thread nD τ).loc main_arg1))
          (m ((c : Thread nD τ).loc main_arg2)) (m ((c : Thread nD τ).loc main_arg3)) := by
  have hW := (Pipeline.withArrays_arr spec0 launch0.win.arr_inj c (V0 m c) (fun w => (dats m 0 c).arrAt w cfg0.N) 4).trans (final4 m c)
  rw [V_x4, V_gamma2, V_beta2, V_main_arg1] at hW
  unfold Pipeline.afterTail₀
  show StableHlo.after hostOps1 _ (Proc.devRef .tc main_v0) = _
  after_results
  exact congrArg (fun A : S2048x4x1x4096.Idx → EReal => shapeCast S2048x4x4096 A shapeCasts_S2048x4x1x4096_S2048x4x4096) hW

theorem kernelOut_apply (x : S2048x4x4096.Idx → EReal) (pe : S2048x4096.Idx → EReal) (g b : S4096.Idx → EReal)
    (s : Fin 2048) (bb : Fin 4) (k : Fin 4096) :
    kernelOut x pe g b (ix3 s bb k) = LayerNorm.entryMul (fun k' => x (ix3 s bb k') + pe (ix2 s k')) (g (ix1 k)) (b (ix1 k)) k := by
  unfold kernelOut
  rw [Cert.LibUnitAxes.shapeCast_ab1c_abc_apply]
  show G4c _ _ _ _ s bb k = _
  unfold G4c
  rw [shapeCast_a_1a_apply, shapeCast_a_1a_apply]
  have e : (fun k' => shapeCast S2048x4x1x4096 x shapeCasts_S2048x4x4096_S2048x4x1x4096 (ix4 s bb (0 : Fin 1) k') + pe (ix2 s k'))
      = fun k' => x (ix3 s bb k') + pe (ix2 s k') :=
    funext fun k' => by rw [Cert.LibUnitAxes.shapeCast_abc_ab1c_apply]
  rw [e]

/-! ## The run, read -/

theorem run : θ_run defs (onTc (τ := τ) (main (F := Ideal))) ⟨m, fun _ => 0, ρ⟩ fun r => ∀ c : Dev nD,
      r.2.mem ((c.tc : Thread nD τ).loc main_v0)
        = kernelOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefRun.lean ====
/-
  The reference as a straight line, and what it leaves in its result buffer.

  The reference gathers the rows of the positional table at the positions 0, 1, …, 2047 (a take along axis 0, lowered
  through an index normalisation and an in-bounds mask), adds the gathered rows to the input over the batch axis, and
  normalises each row of 4096 entries: the row's mean, the centred entries, the mean of their squares, the quotient of the
  centred entry by the square root of (variance + epsilon), then the affine map by gamma and beta along the row.

  Its @main calls the take as a function, which in turn calls a select as a function; both bodies are listed here at
  their call sites over the call's own buffers, so that @main is one list of operations, and the run of such a list
  leaves every buffer at the fold of the operations' results over the launch contents. The result buffer's fold is
  then named as a composition of small terms, one per stage of the computation, which the value proof reads at an index.
-/
import proofs.«173756_g66700842107399_cont_9to1_m_125_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as terms -/

/-- The start indices of the take: the positions 0 … 2047, a negative one moved up by the table's height, as a column. -/
def takeStart : IVec S2048x1 32 :=
  broadcastInDim S2048x1 ![0] bcast_S2048_S2048x1_0
    (select (cmpi .slt (iotaInDim S2048 32 0) (broadcastInDim S2048 ![] bcast_S_S2048 (constantI S_ 32 0#32)))
      (addi (iotaInDim S2048 32 0) (broadcastInDim S2048 ![] bcast_S_S2048 (constantI S_ 32 2048#32)))
      (iotaInDim S2048 32 0))

/-- The in-bounds mask of the take, per position: the start index lies in [0, 2047]. -/
def takeInBounds : IVec S2048 1 :=
  Host.reduce IntOp.andi
    (andi (cmpi .sge takeStart (broadcastInDim S2048x1 ![] bcast_S_S2048x1 (constantI S_ 32 0#32)))
      (cmpi .sle takeStart (broadcastInDim S2048x1 ![0, 1] bcast_S1x1_S2048x1_0_1 (broadcastInDim S1x1 ![1] bcast_S1_S1x1_1 (constantI S1 32 2047#32)))))
    (constantI S_ 1 1#1) reducesTo_S2048x1_S2048_d1 h_S_

/-- The take: the table's rows at the start indices where in bounds, the fill value elsewhere. -/
def takeRows (pe : FVec F S2048x4096 .f32) : FVec F S2048x4096 .f32 :=
  select (broadcastInDim S2048x4096 ![0] bcast_S2048_S2048x4096_0 takeInBounds)
    (Host.gather gather_S2048x4096_S2048x1_S2048x4096_1_0_n_n_0_1_14096 pe takeStart)
    (broadcastInDim S2048x4096 ![] bcast_S_S2048x4096 (constant S_ .f32 0x7FC00000#32))

/-- The input plus the positional rows, the rows repeated over the batch axis. -/
def summed (x : FVec F S2048x4x4096 .f32) (p : FVec F S2048x4096 .f32) : FVec F S2048x4x4096 .f32 :=
  addf x (broadcastInDim S2048x4x4096 ![0, 1, 2] bcast_S2048x1x4096_S2048x4x4096_0_1_2
    (broadcastInDim S2048x1x4096 ![0, 2] bcast_S2048x4096_S2048x1x4096_0_2 p))

/-- The mean along the last axis, kept as a unit axis: the sum from zero, divided by 4096. -/
def rowMean (h : FVec F S2048x4x4096 .f32) : FVec F S2048x4x1 .f32 :=
  Host.divf
    (broadcastInDim S2048x4x1 ![0, 1] bcast_S2048x4_S2048x4x1_0_1
      (Host.reduceAdd h (constant S_ .f32 0x00000000#32) reducesTo_S2048x4x4096_S2048x4_d2 h_S_))
    (broadcastInDim S2048x4x1 ![] bcast_S_S2048x4x1 (constant S_ .f32 0x45800000#32))

/-- The entries less their row's mean. -/
def centred (h : FVec F S2048x4x4096 .f32) : FVec F S2048x4x4096 .f32 :=
  subf h (broadcastInDim S2048x4x4096 ![0, 1, 2] bcast_S2048x4x1_S2048x4x4096_0_1_2 (rowMean h))

/-- The centred entries over the square root of (their squares' row mean plus epsilon). -/
def normalised (h : FVec F S2048x4x4096 .f32) : FVec F S2048x4x4096 .f32 :=
  Host.divf (centred h)
    (broadcastInDim S2048x4x4096 ![0, 1, 2] bcast_S2048x4x1_S2048x4x4096_0_1_2
      (Host.sqrt (addf (rowMean (mulf (centred h) (centred h)))
        (broadcastInDim S2048x4x1 ![] bcast_S_S2048x4x1 (constant S_ .f32 0x3727C5AC#32)))))

/-- Scaled by gamma and shifted by beta, both along the last axis. -/
def affine (n : FVec F S2048x4x4096 .f32) (g b : FVec F S4096 .f32) : FVec F S2048x4x4096 .f32 :=
  addf
    (mulf n (broadcastInDim S2048x4x4096 ![0, 1, 2] bcast_S1x1x4096_S2048x4x4096_0_1_2 (broadcastInDim S1x1x4096 ![2] bcast_S4096_S1x1x4096_2 g)))
    (broadcastInDim S2048x4x4096 ![0, 1, 2] bcast_S1x1x4096_S2048x4x4096_0_1_2 (broadcastInDim S1x1x4096 ![2] bcast_S4096_S1x1x4096_2 b))

/-- The reference's result as a function of its four arguments. -/
def result (x : FVec F S2048x4x4096 .f32) (pe : FVec F S2048x4096 .f32) (g b : FVec F S4096 .f32) : FVec F S2048x4x4096 .f32 :=
  affine (normalised (summed x (takeRows pe))) g b

/-! ## @main as one list of operations -/

/-- @main's operations in order, the take's (and inside it the select's) listed at the call over the call's buffers. -/
abbrev ops : List (HloOp τ sig (Elt F)) :=
  [ StableHlo.nullary main_v0 (iotaInDim S2048 32 0),
    StableHlo.TRef.nullary main_call0.c (constantI S_ 32 0#32),
    StableHlo.TRef.unary main_call0.c main_call0.v0 (broadcastInDim S2048 ![] bcast_S_S2048),
    StableHlo.TRef.binary (.of main_v0) main_call0.v0 main_call0.v1 (cmpi .slt),
    StableHlo.TRef.nullary main_call0.c_0 (constantI S_ 32 2048#32),
    StableHlo.TRef.unary main_call0.c_0 main_call0.v2 (broadcastInDim S2048 ![] bcast_S_S2048),
    StableHlo.TRef.binary (.of main_v0) main_call0.v2 main_call0.v3 addi,
    StableHlo.TRef.ternary main_call0.v1 main_call0.v3 (.of main_v0) main_call0.call0.v0 select,
    StableHlo.TRef.unary main_call0.call0.v0 main_call0.v5 (broadcastInDim S2048x1 ![0] bcast_S2048_S2048x1_0),
    StableHlo.TRef.nullary main_call0.c_1 (constantI S1 32 2047#32),
    StableHlo.TRef.nullary main_call0.c_2 (constantI S_ 32 0#32),
    StableHlo.TRef.unary main_call0.c_2 main_call0.v6 (broadcastInDim S2048x1 ![] bcast_S_S2048x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S2048x1 ![0, 1] bcast_S1x1_S2048x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S2048x1_S2048_d1 h_S_),
    StableHlo.TRef.binary (.of main_arg1) main_call0.v5 main_call0.v13 (fun x i => Host.gather gather_S2048x4096_S2048x1_S2048x4096_1_0_n_n_0_1_14096 x i),
    StableHlo.TRef.unary main_call0.v12 main_call0.v14 (broadcastInDim S2048x4096 ![0] bcast_S2048_S2048x4096_0),
    StableHlo.TRef.nullary main_call0.cst (constant S_ .f32 0x7FC00000#32),
    StableHlo.TRef.unary main_call0.cst main_call0.v15 (broadcastInDim S2048x4096 ![] bcast_S_S2048x4096),
    StableHlo.TRef.ternary main_call0.v14 main_call0.v13 main_call0.v15 main_call0.v16 select,
    StableHlo.unary main_v1 main_v2 (broadcastInDim S2048x1x4096 ![0, 2] bcast_S2048x4096_S2048x1x4096_0_2 : (⟨S2048x4096, .f32⟩ : BufTy).Contents (Elt F) → (⟨S2048x1x4096, .f32⟩ : BufTy).Contents (Elt F)),
    StableHlo.unary main_v2 main_v3 (broadcastInDim S2048x4x4096 ![0, 1, 2] bcast_S2048x1x4096_S2048x4x4096_0_1_2 : (⟨S2048x1x4096, .f32⟩ : BufTy).Contents (Elt F) → (⟨S2048x4x4096, .f32⟩ : BufTy).Contents (Elt F)),
    StableHlo.binary main_arg0 main_v3 main_v4 (addf : (⟨S2048x4x4096, .f32⟩ : BufTy).Contents (Elt F) → (⟨S2048x4x4096, .f32⟩ : BufTy).Contents (Elt F) → (⟨S2048x4x4096, .f32⟩ : BufTy).Contents (Elt F)),
    StableHlo.nullary main_cst (constant S_ .f32 0x00000000#32),
    StableHlo.binary main_v4 main_cst main_v5 ((fun x v => Host.reduceAdd x v reducesTo_S2048x4x4096_S2048x4_d2 h_S_) : (⟨S2048x4x4096, .f32⟩ : BufTy).Contents (Elt F) → (⟨S_, .f32⟩ : BufTy).Contents (Elt F) → (⟨S2048x4, .f32⟩ : BufTy).Contents (Elt F)),
    StableHlo.unary main_v5 main_v6 (broadcastInDim S2048x4x1 ![0, 1] bcast_S2048x4_S2048x4x1_0_1 : (⟨S2048x4, .f32⟩ : BufTy).Contents (Elt F) → (⟨S2048x4x1, .f32⟩ : BufTy).Contents (Elt F)),
    StableHlo.nullary main_cst_0 (constant S_ .f32 0x45800000#32),
    StableHlo.unary main_cst_0 main_v7 (broadcastInDim S2048x4x1 ![] bcast_S_S2048x4x1 : (⟨S_, .f32⟩ : BufTy).Contents (Elt F) → (⟨S2048x4x1, .f32⟩ : BufTy).Contents (Elt F)),
    StableHlo.binary main_v6 main_v7 main_v8 (Host.divf : (⟨S2048x4x1, .f32⟩ : BufTy).Contents (Elt F) → (⟨S2048x4x1, .f32⟩ : BufTy).Contents (Elt F) → (⟨S2048x4x1, .f32⟩ : BufTy).Contents (Elt F)),
    StableHlo.unary main_v8 main_v9 (broadcastInDim S2048x4x4096 ![0, 1, 2] bcast_S2048x4x1_S2048x4x4096_0_1_2 : (⟨S2048x4x1, .f32⟩ : BufTy).Contents (Elt F) → (⟨S2048x4x4096, .f32⟩ : BufTy).Contents (Elt F)),
    StableHlo.binary main_v4 main_v9 main_v10 (subf : (⟨S2048x4x4096, .f32⟩ : BufTy).Contents (Elt F) → (⟨S2048x4x4096, .f32⟩ : BufTy).Contents (Elt F) → (⟨S2048x4x4096, .f32⟩ : BufTy).Contents (Elt F)),
    StableHlo.binary main_v10 main_v10 main_v11 (mulf : (⟨S2048x4x4096, .f32⟩ : BufTy).Contents (Elt F) → (⟨S2048x4x4096, .f32⟩ : BufTy).Contents (Elt F) → (⟨S2048x4x4096, .f32⟩ : BufTy).Contents (Elt F)),
    StableHlo.nullary main_cst_1 (constant S_ .f32 0x00000000#32),
    StableHlo.binary main_v11 main_cst_1 main_v12 ((fun x v => Host.reduceAdd x v reducesTo_S2048x4x4096_S2048x4_d2 h_S_) : (⟨S2048x4x4096, .f32⟩ : BufTy).Contents (Elt F) → (⟨S_, .f32⟩ : BufTy).Contents (Elt F) → (⟨S2048x4, .f32⟩ : BufTy).Contents (Elt F)),
    StableHlo.unary main_v12 main_v13 (broadcastInDim S2048x4x1 ![0, 1] bcast_S2048x4_S2048x4x1_0_1 : (⟨S2048x4, .f32⟩ : BufTy).Contents (Elt F) → (⟨S2048x4x1, .f32⟩ : BufTy).Contents (Elt F)),
    StableHlo.nullary main_cst_2 (constant S_ .f32 0x45800000#32),
    StableHlo.unary main_cst_2 main_v14 (broadcastInDim S2048x4x1 ![] bcast_S_S2048x4x1 : (⟨S_, .f32⟩ : BufTy).Contents (Elt F) → (⟨S2048x4x1, .f32⟩ : BufTy).Contents (Elt F)),
    StableHlo.binary main_v13 main_v14 main_v15 (Host.divf : (⟨S2048x4x1, .f32⟩ : BufTy).Contents (Elt F) → (⟨S2048x4x1, .f32⟩ : BufTy).Contents (Elt F) → (⟨S2048x4x1, .f32⟩ : BufTy).Contents (Elt F)),
    StableHlo.unary main_v8 main_v16 (broadcastInDim S2048x4x4096 ![0, 1, 2] bcast_S2048x4x1_S2048x4x4096_0_1_2 : (⟨S2048x4x1, .f32⟩ : BufTy).Contents (Elt F) → (⟨S2048x4x4096, .f32⟩ : BufTy).Contents (Elt F)),
    StableHlo.binary main_v4 main_v16 main_v17 (subf : (⟨S2048x4x4096, .f32⟩ : BufTy).Contents (Elt F) → (⟨S2048x4x4096, .f32⟩ : BufTy).Contents (Elt F) → (⟨S2048x4x4096, .f32⟩ : BufTy).Contents (Elt F)),
    StableHlo.nullary main_cst_3 (constant S_ .f32 0x3727C5AC#32),
    StableHlo.unary main_cst_3 main_v18 (broadcastInDim S2048x4x1 ![] bcast_S_S2048x4x1 : (⟨S_, .f32⟩ : BufTy).Contents (Elt F) → (⟨S2048x4x1, .f32⟩ : BufTy).Contents (Elt F)),
    StableHlo.binary main_v15 main_v18 main_v19 (addf : (⟨S2048x4x1, .f32⟩ : BufTy).Contents (Elt F) → (⟨S2048x4x1, .f32⟩ : BufTy).Contents (Elt F) → (⟨S2048x4x1, .f32⟩ : BufTy).Contents (Elt F)),
    StableHlo.unary main_v19 main_v20 (Host.sqrt : (⟨S2048x4x1, .f32⟩ : BufTy).Contents (Elt F) → (⟨S2048x4x1, .f32⟩ : BufTy).Contents (Elt F)),
    StableHlo.unary main_v20 main_v21 (broadcastInDim S2048x4x4096 ![0, 1, 2] bcast_S2048x4x1_S2048x4x4096_0_1_2 : (⟨S2048x4x1, .f32⟩ : BufTy).Contents (Elt F) → (⟨S2048x4x4096, .f32⟩ : BufTy).Contents (Elt F)),
    StableHlo.binary main_v17 main_v21 main_v22 (Host.divf : (⟨S2048x4x4096, .f32⟩ : BufTy).Contents (Elt F) → (⟨S2048x4x4096, .f32⟩ : BufTy).Contents (Elt F) → (⟨S2048x4x4096, .f32⟩ : BufTy).Contents (Elt F)),
    StableHlo.unary main_arg2 main_v23 (broadcastInDim S1x1x4096 ![2] bcast_S4096_S1x1x4096_2 : (⟨S4096, .f32⟩ : BufTy).Contents (Elt F) → (⟨S1x1x4096, .f32⟩ : BufTy).Contents (Elt F)),
    StableHlo.unary main_v23 main_v24 (broadcastInDim S2048x4x4096 ![0, 1, 2] bcast_S1x1x4096_S2048x4x4096_0_1_2 : (⟨S1x1x4096, .f32⟩ : BufTy).Contents (Elt F) → (⟨S2048x4x4096, .f32⟩ : BufTy).Contents (Elt F)),
    StableHlo.binary main_v22 main_v24 main_v25 (mulf : (⟨S2048x4x4096, .f32⟩ : BufTy).Contents (Elt F) → (⟨S2048x4x4096, .f32⟩ : BufTy).Contents (Elt F) → (⟨S2048x4x4096, .f32⟩ : BufTy).Contents (Elt F)),
    StableHlo.unary main_arg3 main_v26 (broadcastInDim S1x1x4096 ![2] bcast_S4096_S1x1x4096_2 : (⟨S4096, .f32⟩ : BufTy).Contents (Elt F) → (⟨S1x1x4096, .f32⟩ : BufTy).Contents (Elt F)),
    StableHlo.unary main_v26 main_v27 (broadcastInDim S2048x4x4096 ![0, 1, 2] bcast_S1x1x4096_S2048x4x4096_0_1_2 : (⟨S1x1x4096, .f32⟩ : BufTy).Contents (Elt F) → (⟨S2048x4x4096, .f32⟩ : BufTy).Contents (Elt F)),
    StableHlo.binary main_v25 main_v27 main_v28 (addf : (⟨S2048x4x4096, .f32⟩ : BufTy).Contents (Elt F) → (⟨S2048x4x4096, .f32⟩ : BufTy).Contents (Elt F) → (⟨S2048x4x4096, .f32⟩ : BufTy).Contents (Elt F)) ]

set_option maxRecDepth 4096 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

attribute [local irreducible] Host.reduce Host.gather Host.reduceAdd in
/-- The fold at the result buffer is the composition of the stages; at an argument buffer, what was there. -/
theorem result_eq (V : Valuation τ sig (Elt F)) :
    after ops V (main_v28 : DevRef τ sig)
      = result (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, from any memory with zero counters: every weakly fair execution of @main terminates with the result
    buffer at the stages' composition of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (result_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's result, read at an index.

  The take. Position s of the iota is the word of s, which as a signed integer is s itself: not negative, so the index
  normalisation leaves it; within [0, 2047], so the in-bounds mask is 1 at every position and the select keeps the
  gathered row; and the gather of row min(s, 2047) = s of the table is the table's row s. So the take of the positions
  0 … 2047 is the table.

  The normalisation. Each stage is a pointwise operation, a broadcast along an inserted or a unit axis, or a sum along
  the last axis from the initial value zero; read at (s, b, k) they compose to the layer normalisation of row (s, b) of
  the input plus the table's row s, in the spelling that divides the deviation by the square root.
-/
import proofs.«173756_g66700842107399_cont_9to1_m_125_4_alg».proof.Proof.RefRun
import proofs.«173756_g66700842107399_cont_9to1_m_125_4_alg».proof.Proof.Spec
import Idealize.ShloMosaic.Lib.ValueIdx
import Idealize.ShloMosaic.Lib.Pipeline.Value
import Idealize.ShloMosaic.Lib.IdealHost
import Idealize.ShloMosaic.Lib.Affine
import Idealize.ShloMosaic.Lib.ReduceAll
import Idealize.ShloMosaic.PureOps.Ideal.Laws
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx

/-! ## The take of the positions 0 … 2047 is the table -/

/-- The word of a position below 2048, read signed, is the position. -/
theorem toInt_position (s : Fin 2048) : (BitVec.ofNat 32 s.val).toInt = (s.val : ℤ) := by
  have h := s.isLt
  rw [BitVec.toInt_eq_toNat_cond, BitVec.toNat_ofNat, Nat.mod_eq_of_lt (by omega)]
  split <;> omega

/-- A left fold by `and` from 1 over words that are all 1 is 1. -/
theorem foldl_andi_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_all_one f l _ (IntOp.andi_eq_one.2 ⟨h, hl a List.mem_cons_self⟩) (fun n hn => hl n (List.mem_cons_of_mem _ hn))

/-- The start index at position s is the word of s: it is not negative, so it is not moved. -/
theorem takeStart_apply (s : Fin 2048) (u : Fin 1) : RefRun.takeStart (ix2 s u) = BitVec.ofNat 32 s.val := by
  unfold RefRun.takeStart
  rw [broadcastInDim_apply ![0] bcast_S2048_S2048x1_0 _ (ix2 s u) (ix1 s) (fun a => by
    match a with
    | ⟨0, _⟩ => rfl)]
  rw [select_apply]
  have hc : cmpi .slt (iotaInDim S2048 32 0) (broadcastInDim S2048 ![] bcast_S_S2048 (constantI S_ 32 0#32)) (ix1 s) = 0#1 := by
    refine eq_zero_of_ne_one fun h => ?_
    have h' : IntOp.cmpi .slt (BitVec.ofNat 32 s.val) 0#32 = 1#1 := h
    rw [IntOp.cmpi_slt, toInt_position] at h'
    have : (0#32 : BitVec 32).toInt = 0 := by decide
    omega
  rw [hc, select_zero]
  rfl

/-- Every start index is in bounds. -/
theorem takeInBounds_apply (s : Fin 2048) : RefRun.takeInBounds (ix1 s) = 1#1 := by
  unfold RefRun.takeInBounds
  rw [Host.reduce_eq_foldl]
  refine foldl_andi_all_one _ _ _ rfl fun i _ => ?_
  obtain ⟨p, q, rfl⟩ : ∃ (p : Fin 2048) (q : Fin 1), i = ix2 p q := ⟨i 0, i 1, eq_ix2 i⟩
  show IntOp.andi (IntOp.cmpi .sge (RefRun.takeStart (ix2 p q)) 0#32) (IntOp.cmpi .sle (RefRun.takeStart (ix2 p q)) 2047#32) = 1#1
  rw [takeStart_apply, IntOp.andi_eq_one, IntOp.cmpi_sge, IntOp.cmpi_sle, toInt_position]
  have h0 : (0#32 : BitVec 32).toInt = 0 := by decide
  have h1 : (2047#32 : BitVec 32).toInt = 2047 := by decide
  have := p.isLt
  omega

/-- A gather of whole rows of a [2048, 4096] table at a column of start indices reads, at (s, k), the table at the row the
    start index names (read signed, clamped into [0, 2047]), column k. -/
theorem gatherRows_apply {α : Type} (x : S2048x4096.Idx → α) (idx : IVec S2048x1 32) (s : Fin 2048) (k : Fin 4096) :
    Host.gather gather_S2048x4096_S2048x1_S2048x4096_1_0_n_n_0_1_14096 x idx (ix2 s k)
      = x (ix2 ⟨min (idx (ix2 s (0 : Fin 1))).toInt.toNat 2047, by omega⟩ k) := by
  unfold Host.gather
  refine congrArg x (funext fun a => Fin.ext ?_)
  match a with
  | ⟨0, _⟩ =>
    show gather_S2048x4096_S2048x1_S2048x4096_1_0_n_n_0_1_14096.start (ix2 s k) idx 0
        + gather_S2048x4096_S2048x1_S2048x4096_1_0_n_n_0_1_14096.batchCoord (ix2 s k) 0
        + gather_S2048x4096_S2048x1_S2048x4096_1_0_n_n_0_1_14096.offCoord (ix2 s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2048x4096_S2048x1_S2048x4096_1_0_n_n_0_1_14096.startIndexMap from List.mem_singleton.mpr rfl)]
    have hsi : gather_S2048x4096_S2048x1_S2048x4096_1_0_n_n_0_1_14096.siIdx (ix2 s k)
        ⟨List.idxOf (0 : Fin 2) gather_S2048x4096_S2048x1_S2048x4096_1_0_n_n_0_1_14096.startIndexMap,
          List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show gather_S2048x4096_S2048x1_S2048x4096_1_0_n_n_0_1_14096.start (ix2 s k) idx 1
        + gather_S2048x4096_S2048x1_S2048x4096_1_0_n_n_0_1_14096.batchCoord (ix2 s k) 1
        + gather_S2048x4096_S2048x1_S2048x4096_1_0_n_n_0_1_14096.offCoord (ix2 s k) 1 = k.val
    rw [GatherDims.batchCoord_eq_zero _ _ _ List.not_mem_nil]
    unfold GatherDims.start
    rw [dif_neg (show (1 : Fin 2) ∉ gather_S2048x4096_S2048x1_S2048x4096_1_0_n_n_0_1_14096.startIndexMap from by decide)]
    simp only [Nat.add_zero, Nat.zero_add]
    rfl

/-- The take of the positions 0 … 2047 is the table. -/
theorem takeRows_apply (pe : FVec Ideal S2048x4096 .f32) (s : Fin 2048) (k : Fin 4096) :
    RefRun.takeRows pe (ix2 s k) = pe (ix2 s k) := by
  unfold RefRun.takeRows
  rw [select_apply, broadcastInDim_apply ![0] bcast_S2048_S2048x4096_0 _ (ix2 s k) (ix1 s) (fun a => by
    match a with
    | ⟨0, _⟩ => rfl), takeInBounds_apply, select_one, gatherRows_apply]
  have := s.isLt
  refine congrArg pe (congrArg (fun r => ix2 r k) (Fin.ext ?_))
  show min (RefRun.takeStart (ix2 s (0 : Fin 1))).toInt.toNat 2047 = s.val
  rw [takeStart_apply, toInt_position]
  omega

/-! ## The normalisation, stage by stage -/

theorem summed_apply (x : FVec Ideal S2048x4x4096 .f32) (p : FVec Ideal S2048x4096 .f32) (s : Fin 2048) (b : Fin 4) (k : Fin 4096) :
    RefRun.summed x p (ix3 s b k) = x (ix3 s b k) + p (ix2 s k) := by
  unfold RefRun.summed
  rw [addf_apply, broadcastInDim_apply ![0, 1, 2] bcast_S2048x1x4096_S2048x4x4096_0_1_2 _ (ix3 s b k) (ix3 s (0 : Fin 1) k) (fun a => by
      match a with
      | ⟨0, _⟩ => rfl
      | ⟨1, _⟩ => rfl
      | ⟨2, _⟩ => rfl),
    broadcastInDim_apply ![0, 2] bcast_S2048x4096_S2048x1x4096_0_2 _ (ix3 s (0 : Fin 1) k) (ix2 s k) (fun a => by
      match a with
      | ⟨0, _⟩ => rfl
      | ⟨1, _⟩ => rfl)]

/-- The inserted index of the sum along the last axis. -/
theorem lift_last (hr : S2048x4x4096.Reduces [2] S2048x4) (s : Fin 2048) (b : Fin 4) (k : Fin 4096) :
    hr.lift (ix2 s b) k = ix3 s b k := by
  funext ax; apply Fin.ext
  match ax with
  | ⟨0, _⟩ => rfl
  | ⟨1, _⟩ => rfl
  | ⟨2, _⟩ => rfl

theorem rowMean_apply (hr : S2048x4x4096.Reduces [2] S2048x4) (h : FVec Ideal S2048x4x4096 .f32) (s : Fin 2048) (b : Fin 4) (u : Fin 1) :
    RefRun.rowMean h (ix3 s b u) = LayerNorm.rowMean (fun k => h (ix3 s b k)) := by
  unfold RefRun.rowMean LayerNorm.rowMean
  rw [hostDivf_apply, broadcastInDim_apply ![0, 1] bcast_S2048x4_S2048x4x1_0_1 _ (ix3 s b u) (ix2 s b) (fun a => by
      match a with
      | ⟨0, _⟩ => rfl
      | ⟨1, _⟩ => rfl),
    broadcastInDim_scalar_apply, hostReduceAdd_apply, Ideal.hostReduceAdd_single _ hr]
  show Ideal.div (Ideal.ofBits .f32 0x00000000#32 + ∑ k : Fin 4096, h (hr.lift (ix2 s b) k)) (Ideal.ofBits .f32 0x45800000#32) = _
  rw [Ideal.ofBits_zero_f32, zero_add]
  exact congrArg (fun z => Ideal.div z (Ideal.ofBits .f32 0x45800000#32)) (Finset.sum_congr rfl fun k _ => congrArg h (lift_last hr s b k))

theorem centred_apply (hr : S2048x4x4096.Reduces [2] S2048x4) (h : FVec Ideal S2048x4x4096 .f32) (s : Fin 2048) (b : Fin 4) (k : Fin 4096) :
    RefRun.centred h (ix3 s b k) = LayerNorm.dev (fun k => h (ix3 s b k)) k := by
  unfold RefRun.centred LayerNorm.dev
  rw [subf_apply, broadcastInDim_apply ![0, 1, 2] bcast_S2048x4x1_S2048x4x4096_0_1_2 _ (ix3 s b k) (ix3 s b (0 : Fin 1)) (fun a => by
      match a with
      | ⟨0, _⟩ => rfl
      | ⟨1, _⟩ => rfl
      | ⟨2, _⟩ => rfl), rowMean_apply hr]

theorem normalised_apply (hr : S2048x4x4096.Reduces [2] S2048x4) (h : FVec Ideal S2048x4x4096 .f32) (s : Fin 2048) (b : Fin 4) (k : Fin 4096) :
    RefRun.normalised h (ix3 s b k)
      = Ideal.div (LayerNorm.dev (fun k => h (ix3 s b k)) k) (Ideal.sqrt (LayerNorm.underRoot (fun k => h (ix3 s b k)))) := by
  unfold RefRun.normalised
  rw [hostDivf_apply, centred_apply hr, broadcastInDim_apply ![0, 1, 2] bcast_S2048x4x1_S2048x4x4096_0_1_2 _ (ix3 s b k) (ix3 s b (0 : Fin 1)) (fun a => by
      match a with
      | ⟨0, _⟩ => rfl
      | ⟨1, _⟩ => rfl
      | ⟨2, _⟩ => rfl)]
  show Ideal.div _ (Ideal.sqrt (RefRun.rowMean (mulf (RefRun.centred h) (RefRun.centred h)) (ix3 s b (0 : Fin 1)) + Ideal.ofBits .f32 0x3727C5AC#32)) = _
  rw [rowMean_apply hr]
  have e : (fun k => mulf (RefRun.centred h) (RefRun.centred h) (ix3 s b k))
      = fun k => LayerNorm.dev (fun k => h (ix3 s b k)) k * LayerNorm.dev (fun k => h (ix3 s b k)) k :=
    funext fun k => by rw [mulf_apply, centred_apply hr]
  rw [e]
  rfl

theorem affine_apply (n : FVec Ideal S2048x4x4096 .f32) (g bt : FVec Ideal S4096 .f32) (s : Fin 2048) (b : Fin 4) (k : Fin 4096) :
    RefRun.affine n g bt (ix3 s b k) = n (ix3 s b k) * g (ix1 k) + bt (ix1 k) := by
  unfold RefRun.affine
  rw [addf_apply, mulf_apply,
    broadcastInDim_apply ![0, 1, 2] bcast_S1x1x4096_S2048x4x4096_0_1_2 _ (ix3 s b k) (ix3 (0 : Fin 1) (0 : Fin 1) k) (fun a => by
      match a with
      | ⟨0, _⟩ => rfl
      | ⟨1, _⟩ => rfl
      | ⟨2, _⟩ => rfl),
    broadcastInDim_apply ![0, 1, 2] bcast_S1x1x4096_S2048x4x4096_0_1_2 _ (ix3 s b k) (ix3 (0 : Fin 1) (0 : Fin 1) k) (fun a => by
      match a with
      | ⟨0, _⟩ => rfl
      | ⟨1, _⟩ => rfl
      | ⟨2, _⟩ => rfl),
    broadcastInDim_apply ![2] bcast_S4096_S1x1x4096_2 g (ix3 (0 : Fin 1) (0 : Fin 1) k) (ix1 k) (fun a => by
      match a with
      | ⟨0, _⟩ => rfl),
    broadcastInDim_apply ![2] bcast_S4096_S1x1x4096_2 bt (ix3 (0 : Fin 1) (0 : Fin 1) k) (ix1 k) (fun a => by
      match a with
      | ⟨0, _⟩ => rfl)]

/-- THE RESULT AT AN INDEX: entry (s, b, k) is the normalised entry k of the row x(s, b, ·) + table(s, ·), by gamma's and
    beta's entry k, the deviation divided by the square root. -/
theorem result_apply (hr : S2048x4x4096.Reduces [2] S2048x4) (x : FVec Ideal S2048x4x4096 .f32) (pe : FVec Ideal S2048x4096 .f32)
    (g bt : FVec Ideal S4096 .f32) (s : Fin 2048) (b : Fin 4) (k : Fin 4096) :
    RefRun.result x pe g bt (ix3 s b k)
      = LayerNorm.entryDiv (fun k' => x (ix3 s b k') + pe (ix2 s k')) (g (ix1 k)) (bt (ix1 k)) k := by
  unfold RefRun.result LayerNorm.entryDiv
  rw [affine_apply, normalised_apply hr]
  have e : (fun k' => RefRun.summed x (RefRun.takeRows pe) (ix3 s b k')) = fun k' => x (ix3 s b k') + pe (ix2 s k') :=
    funext fun k' => by rw [summed_apply, takeRows_apply]
  rw [e]

/-- The sum along the last axis does reduce [2048, 4, 4096] to [2048, 4]. -/
theorem reduces_last : S2048x4x4096.Reduces [2] S2048x4 := by decide

end Cert.ReferenceIdeal.RefValue

end
-- ==== Proof.lean ====
/-
  A fused "add the positional rows, then layer-normalise" kernel against its plain reference, at the extended reals.

  Both programs compute, for every position s, batch entry b and lane k,
      out(s, b, k) = N(x(s, b, ·) + table(s, ·))(k) · gamma(k) + beta(k),
  where N normalises a row of 4096 entries by its mean and by the square root of (its variance + epsilon). They differ in
  three ways, none of which changes the value:
  * the reference looks the table's rows up by a take at the positions 0 … 2047, with an index normalisation and an
    out-of-bounds fill; every position is in bounds and not negative, so the take returns the table's own rows
    (Proof/RefValue.lean);
  * the kernel walks the input in blocks of 64 rows of one batch entry; a normalised entry depends only on its own row,
    which lies whole inside its block, so the blocks are the restrictions of one function of the whole arrays, and
    they tile the result (Proof/KValue.lean, over the body's arithmetic read at an index in Proof/KPayload.lean);
  * the kernel multiplies the centred entry by the reciprocal square root of (variance + epsilon) where the reference
    divides by the square root; the number under the root is positive at every row, a sum of squares over a positive
    constant plus a positive epsilon, and for a positive number the two agree at every extended real numerator
    (Proof/Algebra.lean, Proof/Spec.lean). No finiteness of the inputs is used.
  The reference's run is read off its operations listed as one straight line (Proof/RefRun.lean); the kernel's from the
  generated frame run. The idealisation rewrote nothing, so the kernel's idealised program is its own text.
-/
import proofs.«173756_g66700842107399_cont_9to1_m_125_4_alg».proof.Defs
import proofs.«173756_g66700842107399_cont_9to1_m_125_4_alg».proof.Proof.Gen.Kernel
import proofs.«173756_g66700842107399_cont_9to1_m_125_4_alg».proof.Proof.Gen.Kernel.Frame
import proofs.«173756_g66700842107399_cont_9to1_m_125_4_alg».proof.Proof.Gen.KernelIdeal
import proofs.«173756_g66700842107399_cont_9to1_m_125_4_alg».proof.Proof.Gen.KernelIdeal.Frame
import proofs.«173756_g66700842107399_cont_9to1_m_125_4_alg».proof.Proof.Gen.ReferenceIdeal
import proofs.«173756_g66700842107399_cont_9to1_m_125_4_alg».proof.Proof.Gen.Pre_finite_inputs
import proofs.«173756_g66700842107399_cont_9to1_m_125_4_alg».proof.Proof.KValue
import proofs.«173756_g66700842107399_cont_9to1_m_125_4_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealisation rewrote no operation. -/
theorem preserves : Cert.preserves_Kernel_KernelIdeal := trivial

/-- The two programs' results are one function of the arguments: at (s, b, k) both are the normalised entry k of the row
    x(s, b, ·) + table(s, ·) by gamma's and beta's entry k, spelt with a reciprocal square root on one side and a quotient by
    the square root on the other. -/
theorem result_eq (x : (⟨3, ![2048, 4, 4096]⟩ : Shape).Idx → EReal) (pe : (⟨2, ![2048, 4096]⟩ : Shape).Idx → EReal)
    (g b : (⟨1, ![4096]⟩ : Shape).Idx → EReal) :
    Cert.ReferenceIdeal.RefRun.result (F := Ideal) x pe g b = Cert.KernelIdeal.Hand.kernelOut x pe g b := by
  funext i
  obtain ⟨s, bb, k, rfl⟩ : ∃ (s : Fin 2048) (bb : Fin 4) (k : Fin 4096), i = ix3 s bb k := ⟨i 0, i 1, i 2, eq_ix3 i⟩
  rw [Cert.ReferenceIdeal.RefValue.result_apply Cert.ReferenceIdeal.RefValue.reduces_last,
    Cert.KernelIdeal.Hand.kernelOut_apply, Cert.LayerNorm.entryMul_eq_entryDiv]

/-- From memories that agree on the four arguments both programs run, and end with equal results. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
